-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S64x128 : Shape := ⟨2, ![64, 128]⟩
abbrev S128x128 : Shape := ⟨2, ![128, 128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S64x128 .f32) (main_arg2 : FVec F S128x128 .f32) (main_arg3 : IVec S600000 32) (main_arg4 : IVec S600000 32) (main_arg5 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S64x128 : Shape := ⟨2, ![64, 128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S6000x128 : Shape := ⟨2, ![6000, 128]⟩
abbrev S6000x1 : Shape := ⟨2, ![6000, 1]⟩
abbrev S6000 : Shape := ⟨1, ![6000]⟩
abbrev S100000 : Shape := ⟨1, ![100000]⟩
abbrev S2000x128 : Shape := ⟨2, ![2000, 128]⟩

abbrev nBuf : Space → Nat
  | .hbm => 64
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S128x128, .f32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x1, .f32⟩
  | .hbm, ⟨34, _⟩ => ⟨S600000, .f32⟩
  | .hbm, ⟨35, _⟩ => ⟨S_, .f32⟩
  | .hbm, ⟨36, _⟩ => ⟨S_, .f32⟩
  | .hbm, ⟨37, _⟩ => ⟨S600000, .f32⟩
  | .hbm, ⟨38, _⟩ => ⟨S600000, .f32⟩
  | .hbm, ⟨39, _⟩ => ⟨S600000, .f32⟩
  | .hbm, ⟨40, _⟩ => ⟨S_, .f32⟩
  | .hbm, ⟨41, _⟩ => ⟨S100000, .f32⟩
  | .hbm, ⟨42, _⟩ => ⟨S600000x1, .i32⟩
  | .hbm, ⟨43, _⟩ => ⟨S100000, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000, .f32⟩
  | .hbm, ⟨53, _⟩ => ⟨S_, .f32⟩
  | .hbm, ⟨54, _⟩ => ⟨S600000, .f32⟩
  | .hbm, ⟨55, _⟩ => ⟨S600000, .f32⟩
  | .hbm, ⟨56, _⟩ => ⟨S600000, .f32⟩
  | .hbm, ⟨57, _⟩ => ⟨S600000x1, .f32⟩
  | .hbm, ⟨58, _⟩ => ⟨S600000x128, .f32⟩
  | .hbm, ⟨59, _⟩ => ⟨S_, .f32⟩
  | .hbm, ⟨60, _⟩ => ⟨S100000x128, .f32⟩
  | .hbm, ⟨61, _⟩ => ⟨S600000x1, .i32⟩
  | .hbm, ⟨62, _⟩ => ⟨S100000x128, .f32⟩
  | .hbm, ⟨63, _⟩ => ⟨S100000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S6000x128, .f32⟩
  | .local _ .vmem, ⟨5, _⟩ => ⟨S6000x128, .f32⟩
  | .local _ .vmem, ⟨6, _⟩ => ⟨S6000x1, .f32⟩
  | .local _ .vmem, ⟨7, _⟩ => ⟨S6000x1, .f32⟩
  | .local _ .vmem, ⟨8, _⟩ => ⟨S6000x1, .f32⟩
  | .local _ .vmem, ⟨9, _⟩ => ⟨S6000x1, .f32⟩
  | .local _ .vmem, ⟨10, _⟩ => ⟨S6000x128, .f32⟩
  | .local _ .vmem, ⟨11, _⟩ => ⟨S6000x128, .f32⟩
  | .local _ .vmem, ⟨12, _⟩ => ⟨S6000x128, .f32⟩
  | .local _ .vmem, ⟨13, _⟩ => ⟨S6000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  reduces_S6000x128_S6000 : S6000x128.Reduces [1] S6000
  shapeCasts_S6000_S6000x1 : S6000.ShapeCasts S6000x1
  inb_S6000x1_S6000x1_0_0 : ∀ a, (![0, 0] : Fin 2 → Nat) a + S6000x1.size a ≤ S6000x1.size a
  h_S6000x1 : 0 < S6000x1.numel
  shapeCasts_S600000x1_S600000 : S600000x1.ShapeCasts S600000
  reducesTo_S600000_S_d0 : S600000.ReducesTo [0] S_
  h_S_ : 0 < S_.numel
  bcast_S_S100000 : S_.BroadcastsInDim S100000 (![] : Fin 0 → Fin S100000.rank)
  shapeCasts_S600000_S600000x1 : S600000.ShapeCasts S600000x1
  shapeCasts_S6000x1_S6000x1 : S6000x1.ShapeCasts S6000x1
  broadcasts_S6000x1_S6000x128 : S6000x1.Broadcasts S6000x128
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  gather_S100000x128_S600000x1_S600000x128_1_0_n_n_0_1_1128_wf : GatherDims.WF S100000x128 S600000x1 S600000x128 [1] [0] [] [0] [] 1 ![1, 128]
  gather_S64x128_S600000x1_S600000x128_1_0_n_n_0_1_1128_wf : GatherDims.WF S64x128 S600000x1 S600000x128 [1] [0] [] [0] [] 1 ![1, 128]
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .f32 = 32 ∨ (Rect.block (s := S600000x128) S6000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x1.size a ≤ S600000x1.size a
  hwx0_3 : ∀ i : grid0.Coords, EltTy.bits .f32 = 32 ∨ (Rect.block (s := S600000x1) S6000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x1.size a ≤ S600000x1.size a
  hwx1_0 : ∀ i : grid1.Coords, EltTy.bits .f32 = 32 ∨ (Rect.block (s := S600000x1) S6000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S600000x128.size a
  hwx1_1 : ∀ i : grid1.Coords, EltTy.bits .f32 = 32 ∨ (Rect.block (s := S600000x128) S6000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x128.size a ≤ S600000x128.size a
  hwx1_2 : ∀ i : grid1.Coords, EltTy.bits .f32 = 32 ∨ (Rect.block (s := S600000x128) S6000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S64x128_S600000x1_S600000x128_1_0_n_n_0_1_1128 : GatherDims S64x128 S600000x1 S600000x128 where
  offsetDims := [1]
  collapsedSliceDims := [0]
  operandBatchingDims := []
  startIndicesBatchingDims := []
  startIndexMap := [0]
  indexVectorDim := 1
  sliceSizes := ![1, 128]
  wf := gather_S64x128_S600000x1_S600000x128_1_0_n_n_0_1_1128_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v6) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S6000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S6000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S6000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S6000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S64x128 : Shape := ⟨2, ![64, 128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S128x128, .f32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S600000, .f32⟩
  | .hbm, ⟨38, _⟩ => ⟨S_, .f32⟩
  | .hbm, ⟨39, _⟩ => ⟨S_, .f32⟩
  | .hbm, ⟨40, _⟩ => ⟨S600000, .f32⟩
  | .hbm, ⟨41, _⟩ => ⟨S600000, .f32⟩
  | .hbm, ⟨42, _⟩ => ⟨S600000, .f32⟩
  | .hbm, ⟨43, _⟩ => ⟨S_, .f32⟩
  | .hbm, ⟨44, _⟩ => ⟨S100000, .f32⟩
  | .hbm, ⟨45, _⟩ => ⟨S600000x1, .i32⟩
  | .hbm, ⟨46, _⟩ => ⟨S100000, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000, .f32⟩
  | .hbm, ⟨56, _⟩ => ⟨S_, .f32⟩
  | .hbm, ⟨57, _⟩ => ⟨S600000, .f32⟩
  | .hbm, ⟨58, _⟩ => ⟨S600000, .f32⟩
  | .hbm, ⟨59, _⟩ => ⟨S600000, .f32⟩
  | .hbm, ⟨60, _⟩ => ⟨S600000x1, .f32⟩
  | .hbm, ⟨61, _⟩ => ⟨S600000x128, .f32⟩
  | .hbm, ⟨62, _⟩ => ⟨S600000x128, .f32⟩
  | .hbm, ⟨63, _⟩ => ⟨S_, .f32⟩
  | .hbm, ⟨64, _⟩ => ⟨S100000x128, .f32⟩
  | .hbm, ⟨65, _⟩ => ⟨S600000x1, .i32⟩
  | .hbm, ⟨66, _⟩ => ⟨S100000x128, .f32⟩
  | .hbm, ⟨67, _⟩ => ⟨S100000x128, .f32⟩
  | .hbm, ⟨68, _⟩ => ⟨S128x128, .f32⟩
  | .hbm, ⟨69, _⟩ => ⟨S100000x128, .f32⟩
  | .hbm, ⟨70, _⟩ => ⟨S_, .f32⟩
  | .hbm, ⟨71, _⟩ => ⟨S_, .f32⟩
  | .hbm, ⟨72, _⟩ => ⟨S100000x128, .f32⟩
  | .hbm, ⟨73, _⟩ => ⟨S100000x128, .i1⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  reducesTo_S600000x128_S600000_d1 : S600000x128.ReducesTo [1] S600000
  h_S_ : 0 < S_.numel
  reducesTo_S600000_S_d0 : S600000.ReducesTo [0] S_
  bcast_S_S100000 : S_.BroadcastsInDim S100000 (![] : Fin 0 → Fin S100000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  gather_S100000x128_S600000x1_S600000x128_1_0_n_n_0_1_1128_wf : GatherDims.WF S100000x128 S600000x1 S600000x128 [1] [0] [] [0] [] 1 ![1, 128]
  gather_S64x128_S600000x1_S600000x128_1_0_n_n_0_1_1128_wf : GatherDims.WF S64x128 S600000x1 S600000x128 [1] [0] [] [0] [] 1 ![1, 128]
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S64x128_S600000x1_S600000x128_1_0_n_n_0_1_1128 : GatherDims S64x128 S600000x1 S600000x128 where
  offsetDims := [1]
  collapsedSliceDims := [0]
  operandBatchingDims := []
  startIndicesBatchingDims := []
  startIndexMap := [0]
  indexVectorDim := 1
  sliceSizes := ![1, 128]
  wf := gather_S64x128_S600000x1_S600000x128_1_0_n_n_0_1_1128_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its result named.

  The program is three launches among stretches of host operations. Every buffer's contents at the boundaries between
  these six segments is a fold from the launch memory (`Gen.W0` … `Gen.W6`): a stretch of host operations applies them
  in order, a launch replaces its arrays by what its write-backs leave. Every weakly fair execution terminates with each
  unscoped buffer at the last boundary's contents; read at the result buffer this gives the result, read at the
  arguments (which nothing writes) the launch contents.
-/
import proofs.«178650_j67259187855785_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result buffer at the last
    boundary's contents and the six argument arrays as launched. -/
theorem run : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.Stages.lean ====
/-
  The stages of the computation, each as ONE function of whole arrays, generic in the float instance.

  For edges e < 600000 with head h(e), relation r(e), tail t(e), entity rows x, relation rows ρ and weight W:
    score(e)   = Σ_d x[t(e),d] · tanh (x[h(e),d] + ρ[r(e),d])
    p(e)       = exp (score(e) − max_e' score(e'))
    attn(e)    = p(e) / (Σ_{e' : h(e') = h(e)} p(e') + 1e-10)
    agg[n,d]   = Σ_{e : h(e) = n} attn(e) · x[t(e),d]
    out[n,j]   = leaky (Σ_d (x[n,d] + agg[n,d]) · W[j,d]),   leaky y = if y ≥ 0 then y else 0.2 · y.
  Each definition below is the composition of the host operations that compute that stage, in the order the
  reference applies them; the whole result is `refOut`.
-/
import proofs.«178650_j67259187855785_1_alg».proof.Proof.Gen.ReferenceIdeal

noncomputable section

namespace Cert.Stage

open Idealize.ShloMosaic Cert.ReferenceIdeal Cert.ReferenceIdeal.Facts₀

variable (F : FTy → Type) [FloatOps F]

/-- A float array of shape `s`. -/
abbrev FA (s : Shape) := (⟨s, .f32⟩ : BufTy).Contents (Elt F)
/-- An array of 32-bit integers of shape `s`. -/
abbrev IA (s : Shape) := (⟨s, .i32⟩ : BufTy).Contents (Elt F)

variable {F}

/-- The row numbers a gather reads, as a column: a negative number `k` stands for `k + n` (counting from the end). -/
def rowIdx (n : BitVec 32) (h : IA F S600000) : IA F S600000x1 :=
  broadcastInDim S600000x1 ![0] bcast_S600000_S600000x1_0
    (select (cmpi .slt h (broadcastInDim S600000 ![] bcast_S_S600000 (constantI S_ 32 0#32)))
      (addi h (broadcastInDim S600000 ![] bcast_S_S600000 (constantI S_ 32 n))) h)

/-- The entity rows of the edges' endpoints: row `e` is `x[k(e), ·]`. -/
def entRows (x : FA F S100000x128) (k : IA F S600000) : FA F S600000x128 :=
  Host.gather gather_S100000x128_S600000x1_S600000x128_1_0_n_n_0_1_1128 x (rowIdx 100000#32 k)

/-- The relation rows of the edges: row `e` is `ρ[r(e), ·]`. -/
def relRows (ρ : FA F S64x128) (r : IA F S600000) : FA F S600000x128 :=
  Host.gather gather_S64x128_S600000x1_S600000x128_1_0_n_n_0_1_1128 ρ (rowIdx 64#32 r)

/-- The score of every edge: the sum over the 128 columns of `tail · tanh (head + relation)`. -/
def score (eh et er : FA F S600000x128) : FA F S600000 :=
  Host.reduceAdd (mulf et (Host.tanh (addf eh er))) (constant S_ .f32 0x00000000#32) reducesTo_S600000x128_S600000_d1 h_S_

/-- The exponentials `exp (score − max score)`. -/
def expShift (s : FA F S600000) : FA F S600000 :=
  Host.exp (subf s (broadcastInDim S600000 ![] bcast_S_S600000
    (Host.reduce FloatOps.maximumf s (constant S_ .f32 0xFF800000#32) reducesTo_S600000_S_d0 h_S_)))

/-- The attention weights: each edge's exponential over the sum of the exponentials of the edges with the same head,
    plus `1e-10`. -/
def attn (s : FA F S600000) (h : IA F S600000) : FA F S600000 :=
  Host.divf (expShift s)
    (addf
      (Host.gather gather_S100000_S600000x1_S600000_n_0_n_n_0_1_1
        (Host.scatterAdd scatter_S100000_S600000x1_S600000_n_0_0_1
          (broadcastInDim S100000 ![] bcast_S_S100000 (constant S_ .f32 0x00000000#32))
          (broadcastInDim S600000x1 ![0] bcast_S600000_S600000x1_0 h) (expShift s))
        (rowIdx 100000#32 h))
      (broadcastInDim S600000 ![] bcast_S_S600000 (constant S_ .f32 0x2EDBE6FF#32)))

/-- The weighted messages `attn(e) · x[t(e), d]`, the weight spread along the row. -/
def weighted (a : FA F S600000) (et : FA F S600000x128) : FA F S600000x128 :=
  mulf (broadcastInDim S600000x128 ![0, 1] bcast_S600000x1_S600000x128_0_1
    (broadcastInDim S600000x1 ![0] bcast_S600000_S600000x1_0 a)) et

/-- The messages summed into their head's row. -/
def agg (w : FA F S600000x128) (h : IA F S600000) : FA F S100000x128 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 h) w

/-- `leaky y = if y ≥ 0 then y else 0.2 · y`, entry by entry. -/
def leaky (y : FA F S100000x128) : FA F S100000x128 :=
  select (cmpf .oge y (broadcastInDim S100000x128 ![] bcast_S_S100000x128 (constant S_ .f32 0x00000000#32))) y
    (mulf (broadcastInDim S100000x128 ![] bcast_S_S100000x128 (id (constant S_ .f32 0x3E4CCCCD#32))) y)

/-- The layer's output from the entity rows, the aggregate and the weight: `leaky ((x + agg) · Wᵀ)`. -/
def final (x ag : FA F S100000x128) (w : FA F S128x128) : FA F S100000x128 :=
  leaky (Host.dotGeneral dot_S100000x128_S128x128_S100000x128_1_0_0_1_n_n none (addf x ag)
    (transpose S128x128 [1, 0] w transposes_S128x128_S128x128_1_0))

/-- The reference's result as one function of its six arguments. -/
def refOut (x : FA F S100000x128) (ρ : FA F S64x128) (w : FA F S128x128) (h r t : IA F S600000) : FA F S100000x128 :=
  final x (agg (weighted (attn (score (entRows x h) (entRows x t) (relRows ρ r)) h) (entRows x t)) h) w

end Cert.Stage

end
-- ==== Proof.KFolds.lean ====
/-
  The kernel program's three stretches of host operations, each read at the buffers the following launch takes.

  Before the first launch the host gathers the edges' head rows, tail rows and relation rows. Between the first and the
  second it recasts the score column as a vector, turns the scores into attention weights and recasts those as a column.
  Between the second and the third it sums the weighted messages into their heads' rows. Each result buffer after a stretch
  is the composition of that stretch's operations over the contents it starts from — the same operations, in the same
  order, as the reference's stage functions. No stretch writes an argument, nor a buffer it only reads.
-/
import proofs.«178650_j67259187855785_1_alg».proof.Proof.Gen.KernelIdeal.Launch
import proofs.«178650_j67259187855785_1_alg».proof.Proof.Stages
import Idealize.ShloMosaic.Lib.StableHlo.Run

noncomputable section

namespace Cert.KernelIdeal.KFolds

open Cert.KernelIdeal Cert.KernelIdeal.Gen Idealize.ShloMosaic Idealize.ShloMosaic.TcCoe Idealize.SL.Sem
  Idealize.ShloMosaic.StableHlo

variable {F : FTy → Type} [FloatOps F]

/-! ## Before the first launch: the three gathers -/

attribute [local irreducible] Host.gather in
set_option maxRecDepth 16384 in
theorem ops0_v6 (W : Valuation τ sig (Elt F)) :
    after hostOps0 W (main_v6 : DevRef τ sig) = Cert.Stage.entRows (W (main_arg0 : DevRef τ sig)) (W (main_arg3 : DevRef τ sig)) := by
  after_results_simp
  rfl

attribute [local irreducible] Host.gather in
set_option maxRecDepth 16384 in
theorem ops0_v13 (W : Valuation τ sig (Elt F)) :
    after hostOps0 W (main_v13 : DevRef τ sig) = Cert.Stage.entRows (W (main_arg0 : DevRef τ sig)) (W (main_arg5 : DevRef τ sig)) := by
  after_results_simp
  rfl

attribute [local irreducible] Host.gather in
set_option maxRecDepth 16384 in
theorem ops0_v20 (W : Valuation τ sig (Elt F)) :
    after hostOps0 W (main_v20 : DevRef τ sig) = Cert.Stage.relRows (W (main_arg1 : DevRef τ sig)) (W (main_arg4 : DevRef τ sig)) := by
  after_results_simp
  rfl

set_option maxRecDepth 16384 in
theorem ops0_arg0 (W : Valuation τ sig (Elt F)) : after hostOps0 W (main_arg0 : DevRef τ sig) = W (main_arg0 : DevRef τ sig) := by
  after_results_simp
set_option maxRecDepth 16384 in
theorem ops0_arg2 (W : Valuation τ sig (Elt F)) : after hostOps0 W (main_arg2 : DevRef τ sig) = W (main_arg2 : DevRef τ sig) := by
  after_results_simp
set_option maxRecDepth 16384 in
theorem ops0_arg3 (W : Valuation τ sig (Elt F)) : after hostOps0 W (main_arg3 : DevRef τ sig) = W (main_arg3 : DevRef τ sig) := by
  after_results_simp

/-! ## Between the first and the second launch: scores to attention weights -/

attribute [local irreducible] Host.gather Host.scatterAdd Host.reduce in
set_option maxRecDepth 16384 in
theorem ops1_v40 (W : Valuation τ sig (Elt F)) :
    after hostOps1 W (main_v40 : DevRef τ sig)
      = shapeCast S600000x1 (Cert.Stage.attn (shapeCast S600000 (W (main_v21 : DevRef τ sig)) shapeCasts_S600000x1_S600000)
          (W (main_arg3 : DevRef τ sig))) shapeCasts_S600000_S600000x1 := by
  after_results_simp
  rfl

set_option maxRecDepth 16384 in
theorem ops1_v13 (W : Valuation τ sig (Elt F)) : after hostOps1 W (main_v13 : DevRef τ sig) = W (main_v13 : DevRef τ sig) := by
  after_results_simp
set_option maxRecDepth 16384 in
theorem ops1_arg0 (W : Valuation τ sig (Elt F)) : after hostOps1 W (main_arg0 : DevRef τ sig) = W (main_arg0 : DevRef τ sig) := by
  after_results_simp
set_option maxRecDepth 16384 in
theorem ops1_arg2 (W : Valuation τ sig (Elt F)) : after hostOps1 W (main_arg2 : DevRef τ sig) = W (main_arg2 : DevRef τ sig) := by
  after_results_simp
set_option maxRecDepth 16384 in
theorem ops1_arg3 (W : Valuation τ sig (Elt F)) : after hostOps1 W (main_arg3 : DevRef τ sig) = W (main_arg3 : DevRef τ sig) := by
  after_results_simp

/-! ## Between the second and the third launch: the messages summed into their heads' rows -/

attribute [local irreducible] Host.scatterAdd in
theorem ops2_v44 (W : Valuation τ sig (Elt F)) :
    after hostOps2 W (main_v44 : DevRef τ sig) = Cert.Stage.agg (W (main_v41 : DevRef τ sig)) (W (main_arg3 : DevRef τ sig)) := by
  after_results_simp
  rfl

theorem ops2_arg0 (W : Valuation τ sig (Elt F)) : after hostOps2 W (main_arg0 : DevRef τ sig) = W (main_arg0 : DevRef τ sig) := by
  after_results_simp
theorem ops2_arg2 (W : Valuation τ sig (Elt F)) : after hostOps2 W (main_arg2 : DevRef τ sig) = W (main_arg2 : DevRef τ sig) := by
  after_results_simp

end Cert.KernelIdeal.KFolds

end
-- ==== Proof.LibKeepdims.lean ====
/-
  Layout lemmas for a row statistic kept as a column: a vector [a] seen as a column [a, 1], and a column [a, 1]
  repeated along the rows to [a, b], each read at an index written by coordinates. (The library reads the leading-unit-axis
  forms [a] → [1, a] and [1, b] → [a, b]; these are the trailing-unit-axis forms every `keepdims` reduction meets.)
-/
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Score.lean ====
/-
  The score of an edge, read on both sides as one sum over the 128 columns:
    Σ_d tail[e,d] · tanh (head[e,d] + rel[e,d]).
  The kernel computes it per block of 6000 edges as a lane sum kept as a column; the reference as a sum over axis 1 of the
  whole [600000, 128] product, started from zero.
-/
import proofs.«178650_j67259187855785_1_alg».proof.Proof.Gen.KernelIdeal.Skeleton
import proofs.«178650_j67259187855785_1_alg».proof.Proof.Stages
import proofs.«178650_j67259187855785_1_alg».proof.Proof.LibKeepdims
import Idealize.ShloMosaic.Lib.ValueIdx
import Idealize.ShloMosaic.Lib.Pipeline.Value
import Idealize.ShloMosaic.PureOps.Ideal.Laws

noncomputable section

namespace Cert.Score

open Idealize.ShloMosaic Idealize.ShloMosaic.ValueIdx

/-- The score of row `r` of three [n, 128] arrays. -/
def rowScore {n : ℕ} (h t rl : (⟨2, ![n, 128]⟩ : Shape).Idx → EReal) (r : Fin n) : EReal :=
  ∑ d : Fin 128, t (ix2 r d) * Ideal.tanh (h (ix2 r d) + rl (ix2 r d))

/-- The index a sum over axis 1 of an [n, 128] array inserts at row `r`, column `d`. -/
theorem lift_row {n : ℕ} (hr : Shape.Reduces (⟨2, ![n, 128]⟩ : Shape) [(1 : Fin 2)] ⟨1, ![n]⟩) (r : Fin n) (d : Fin 128) :
    hr.lift (ix1 r) d = ix2 r d := by
  funext a
  apply Fin.ext
  match a with
  | ⟨0, _⟩ => rfl
  | ⟨1, _⟩ => rfl

open Cert.KernelIdeal Cert.KernelIdeal.Gen in
/-- The kernel's stored column at row `r` of a block is the score of that row of the three loaded blocks. -/
theorem pay_apply (x0 x1 x2 : Vec Ideal S6000x128 .f32) (r : Fin 6000) (u : Fin 1) :
    k0_pay1 x0 x1 x2 (ix2 r u) = rowScore x0 x1 x2 r := by
  unfold k0_pay1
  dsimp only
  refine (Cert.LibKeepdims.shapeCast_a_a1_apply _ _ r u).trans ?_
  refine (Ideal.multiReduction_add_single _ _ _ _ _ (ix1 r)).trans ?_
  unfold rowScore
  refine Finset.sum_congr rfl fun d _ => ?_
  refine (congrArg _ (lift_row _ r d)).trans ?_
  simp only [shapeCast_self]
  rfl

/-- The reference's score of edge `e` is the score of row `e` of the three gathered arrays. -/
theorem stage_apply (eh et er : Cert.Stage.FA Ideal Cert.ReferenceIdeal.S600000x128) (e : Fin 600000) :
    Cert.Stage.score eh et er (ix1 e) = rowScore eh et er e := by
  unfold Cert.Stage.score Host.reduceAdd
  rw [Ideal.hostReduceAdd_def]
  refine (Ideal.hostReduceAdd_single _ (by decide) _ _ (ix1 e)).trans ?_
  unfold rowScore
  rw [show (constant (F := Ideal) Cert.ReferenceIdeal.S_ .f32 0x00000000#32) _ = Ideal.ofBits .f32 0x00000000#32 from rfl,
    Ideal.ofBits_zero_f32, zero_add]
  refine Finset.sum_congr rfl fun d _ => ?_
  refine (congrArg _ (lift_row (by decide) e d)).trans ?_
  rfl

end Cert.Score

end
-- ==== Proof.Region0.lean ====
/-
  The first launch (the scores): the [600000, 1] output array after the launch holds, at (e, 0), the score of row `e` of its
  three [600000, 128] input arrays.

  The grid has 100 points; point `t` loads rows 6000·t … 6000·t + 5999 of each input and writes back the same rows of the
  output, so the blocks tile the output and each written entry is the score of its own row.
-/
import proofs.«178650_j67259187855785_1_alg».proof.Proof.Gen.KernelIdeal.Frame
import proofs.«178650_j67259187855785_1_alg».proof.Proof.Score
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the three input arrays: entry (e, 0) is the score of row `e`. -/
def G (eh et er : S600000x128.Idx → EReal) : S600000x1.Idx → EReal :=
  fun i => Cert.Score.rowScore (n := 600000) eh et er (i 0)

/-- Every window's block at point `t` is block row `t`, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A block's column at a row, from rows of whole arrays: if the three loaded blocks are rows `o + r` of `eh`, `et`, `er`,
    the stored entry of block row `y 0` is `G` at array row `o + y 0`. -/
theorem block_entry (x0 x1 x2 : Vec Ideal S6000x128 .f32) (eh et er : S600000x128.Idx → EReal) (o : ℕ)
    (h0 : ∀ (r : Fin 6000) (d : Fin 128) (e : Fin 600000), e.val = o + r.val → x0 (ix2 r d) = eh (ix2 e d))
    (h1 : ∀ (r : Fin 6000) (d : Fin 128) (e : Fin 600000), e.val = o + r.val → x1 (ix2 r d) = et (ix2 e d))
    (h2 : ∀ (r : Fin 6000) (d : Fin 128) (e : Fin 600000), e.val = o + r.val → x2 (ix2 r d) = er (ix2 e d))
    (y : S6000x1.Idx) (i : S600000x1.Idx) (hi : (i 0).val = o + (y 0).val) :
    k0_pay1 x0 x1 x2 y = G eh et er i := by
  obtain ⟨r, u, rfl⟩ : ∃ (r : Fin 6000) (u : Fin 1), y = ix2 r u := ⟨y 0, y 1, eq_ix2 y⟩
  rw [Cert.Score.pay_apply]
  unfold G Cert.Score.rowScore
  refine Finset.sum_congr rfl fun d _ => ?_
  rw [h0 r d (i 0) hi, h1 r d (i 0) hi, h2 r d (i 0) hi]

/-- What point `t` writes back is block `t` of `G` of the arrays as the launch finds them. -/
theorem flushed_eq (c : Dev nD) (t : Fin cfg0.N) :
    (dat0 V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S6000x128) hz]
  obtain ⟨e00, e01, e10, e11, e20, e21, e30, e31⟩ := idx_facts t
  funext j
  show k0_pay1 (iblk0 V c 0 t) (iblk0 V c 1 t) (iblk0 V c 2 t) j
      = G (V c (Pipeline.arrRef spec0 0)) (V c (Pipeline.arrRef spec0 1)) (V c (Pipeline.arrRef spec0 2)) (((cfg0.win 3).blk t).view.emb j)
  refine block_entry (iblk0 V c 0 t) (iblk0 V c 1 t) (iblk0 V c 2 t) _ _ _ (t.val * 6000) ?_ ?_ ?_ j _ ?_
  · intro r d e he
    show V c (Pipeline.arrRef spec0 0) (((cfg0.win 0).blk t).view.emb (ix2 r d)) = V c (Pipeline.arrRef spec0 0) (ix2 e d)
    refine congrArg _ (funext fun a => Fin.ext ?_)
    match a with
    | ⟨0, _⟩ => show win0_0.index t (0 : Fin 2) * 6000 + 1 * r.val = e.val; omega
    | ⟨1, _⟩ => show win0_0.index t (1 : Fin 2) * 128 + 1 * d.val = d.val; omega
  · intro r d e he
    show V c (Pipeline.arrRef spec0 1) (((cfg0.win 1).blk t).view.emb (ix2 r d)) = V c (Pipeline.arrRef spec0 1) (ix2 e d)
    refine congrArg _ (funext fun a => Fin.ext ?_)
    match a with
    | ⟨0, _⟩ => show win0_1.index t (0 : Fin 2) * 6000 + 1 * r.val = e.val; omega
    | ⟨1, _⟩ => show win0_1.index t (1 : Fin 2) * 128 + 1 * d.val = d.val; omega
  · intro r d e he
    show V c (Pipeline.arrRef spec0 2) (((cfg0.win 2).blk t).view.emb (ix2 r d)) = V c (Pipeline.arrRef spec0 2) (ix2 e d)
    refine congrArg _ (funext fun a => Fin.ext ?_)
    match a with
    | ⟨0, _⟩ => show win0_2.index t (0 : Fin 2) * 6000 + 1 * r.val = e.val; omega
    | ⟨1, _⟩ => show win0_2.index t (1 : Fin 2) * 128 + 1 * d.val = d.val; omega
  · show win0_3.index t (0 : Fin 2) * 6000 + 1 * (j 0).val = t.val * 6000 + (j 0).val
    omega

/-- An index of the output array is in point `t`'s block iff each coordinate is in the block's range on its axis. -/
theorem mem_blk (t : Fin cfg0.N) (i : S600000x1.Idx) :
    i ∈ ((cfg0.win 3).blk t).view.set ↔ ∀ a : Fin 2, win0_3.index t a * S6000x1.size a ≤ (i a).val ∧ (i a).val < win0_3.index t a * S6000x1.size a + S6000x1.size a := by
  show i ∈ ((View.whole main_v21).slice (win0_3.rect t)).set ↔ _
  rw [View.set_slice_whole, Rect.mem_set_unit]
  exact Iff.rfl

/-- The output array after the launch: the blocks of the 100 points tile it (row `e` is in block `e / 6000`), so it holds
    `G` of the input arrays as the launch finds them. -/
theorem final (c : Dev nD) : (dat0 V c).arrAt 3 cfg0.N
    = G (V c (Pipeline.arrRef spec0 0)) (V c (Pipeline.arrRef spec0 1)) (V c (Pipeline.arrRef spec0 2)) :=
  (dat0 V c).arrAt_eq_of_cover 3 _ (fun t _ => flushed_eq V c t) fun i => by
    have hi0 : (i 0).val < 600000 := (i 0).isLt
    have hi1 : (i 1).val < 1 := (i 1).isLt
    have hN : cfg0.N = 100 := N_0
    have hq : (i 0).val / 6000 < cfg0.N := by rw [hN]; omega
    obtain ⟨-, -, -, -, -, -, e30, e31⟩ := idx_facts ⟨(i 0).val / 6000, hq⟩
    refine ⟨⟨(i 0).val / 6000, hq⟩, flush0_3 _, ?_⟩
    rw [mem_blk]
    intro a
    match a with
    | ⟨0, _⟩ =>
      show win0_3.index ⟨(i 0).val / 6000, hq⟩ (0 : Fin 2) * 6000 ≤ (i 0).val ∧ (i 0).val < win0_3.index ⟨(i 0).val / 6000, hq⟩ (0 : Fin 2) * 6000 + 6000
      rw [e30]; show (i 0).val / 6000 * 6000 ≤ (i 0).val ∧ (i 0).val < (i 0).val / 6000 * 6000 + 6000; omega
    | ⟨1, _⟩ =>
      show win0_3.index ⟨(i 0).val / 6000, hq⟩ (1 : Fin 2) * 1 ≤ (i 1).val ∧ (i 1).val < win0_3.index ⟨(i 0).val / 6000, hq⟩ (1 : Fin 2) * 1 + 1
      rw [e31]; omega

end Cert.KernelIdeal.Region0

end
-- ==== Proof.Weighted.lean ====
/-
  The weighted message of an edge, read on both sides as one product: attn(e) · tail[e,d].
  The kernel multiplies a [6000, 1] column of weights, spread along the row, with the block of tail rows; the reference spreads
  the [600000] weights to [600000, 1] and then to [600000, 128] before the product.
-/
import proofs.«178650_j67259187855785_1_alg».proof.Proof.Gen.KernelIdeal.Skeleton
import proofs.«178650_j67259187855785_1_alg».proof.Proof.Stages
import proofs.«178650_j67259187855785_1_alg».proof.Proof.LibKeepdims
import Idealize.ShloMosaic.Lib.ValueIdx
import Idealize.ShloMosaic.Lib.Pipeline.Value

noncomputable section

namespace Cert.Weighted

open Idealize.ShloMosaic Idealize.ShloMosaic.ValueIdx

open Cert.KernelIdeal Cert.KernelIdeal.Gen in
/-- The kernel's stored block at (r, d): the weight of block row `r` times the tail entry. -/
theorem pay_apply (x0 : Vec Ideal S6000x1 .f32) (x1 : Vec Ideal S6000x128 .f32) (r : Fin 6000) (d : Fin 128) :
    k1_pay1 x0 x1 (ix2 r d) = x0 (ix2 r (0 : Fin 1)) * x1 (ix2 r d) := by
  unfold k1_pay1
  try dsimp only
  refine (mulf_apply _ _ _).trans ?_
  refine congrArg₂ (· * ·) ?_ ?_
  · exact (Cert.LibKeepdims.broadcastTo_a1_ab_apply _ _ r d).trans (congrFun (shapeCast_self x0 _) _)
  · exact congrFun (shapeCast_self x1 _) _

/-- The reference's weighted message at (e, d): the weight of edge `e` times the tail entry. -/
theorem stage_apply (a : Cert.Stage.FA Ideal Cert.ReferenceIdeal.S600000) (et : Cert.Stage.FA Ideal Cert.ReferenceIdeal.S600000x128)
    (e : Fin 600000) (d : Fin 128) : Cert.Stage.weighted a et (ix2 e d) = a (ix1 e) * et (ix2 e d) := by
  unfold Cert.Stage.weighted
  refine (mulf_apply _ _ _).trans ?_
  refine congrArg (· * _) ?_
  refine (broadcastInDim_apply _ _ _ (ix2 e d) (ix2 e (0 : Fin 1)) fun ax => ?_).trans
    (broadcastInDim_apply _ _ a (ix2 e (0 : Fin 1)) (ix1 e) fun ax => ?_)
  · match ax with
    | ⟨0, _⟩ => show e.val = if (600000 : ℕ) = 1 then 0 else e.val; rw [if_neg (by decide)]
    | ⟨1, _⟩ => rfl
  · match ax with
    | ⟨0, _⟩ => show e.val = if (600000 : ℕ) = 1 then 0 else e.val; rw [if_neg (by decide)]

end Cert.Weighted

end
-- ==== Proof.Region1.lean ====
/-
  The second launch (the weighted messages): the [600000, 128] output array after the launch holds, at (e, d), the weight in
  row `e` of its [600000, 1] input column times entry (e, d) of its [600000, 128] input.

  The grid has 100 points; point `t` loads rows 6000·t … 6000·t + 5999 of both inputs and writes back the same rows of the
  output, so the blocks tile the output.
-/
import proofs.«178650_j67259187855785_1_alg».proof.Proof.Gen.KernelIdeal.Frame
import proofs.«178650_j67259187855785_1_alg».proof.Proof.Weighted
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the two input arrays. -/
def G (col : S600000x1.Idx → EReal) (et : S600000x128.Idx → EReal) : S600000x128.Idx → EReal :=
  fun i => col (ix2 (n0 := 600000) (i 0) (0 : Fin 1)) * et (ix2 (n0 := 600000) (n1 := 128) (i 0) (i 1))

/-- Every window's block at point `t` is block row `t`, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- A block's entry from rows of whole arrays: if the loaded blocks are rows `o + r` of `col` and `et`, the stored entry
    (y 0, y 1) is `G` at array index (o + y 0, y 1). -/
theorem block_entry (x0 : Vec Ideal S6000x1 .f32) (x1 : Vec Ideal S6000x128 .f32)
    (col : S600000x1.Idx → EReal) (et : S600000x128.Idx → EReal) (o : ℕ)
    (h0 : ∀ (r : Fin 6000) (e : Fin 600000), e.val = o + r.val → x0 (ix2 r (0 : Fin 1)) = col (ix2 e (0 : Fin 1)))
    (h1 : ∀ (r : Fin 6000) (d : Fin 128) (e : Fin 600000), e.val = o + r.val → x1 (ix2 r d) = et (ix2 e d))
    (y : S6000x128.Idx) (i : S600000x128.Idx) (hi0 : (i 0).val = o + (y 0).val) (hi1 : (i 1).val = (y 1).val) :
    k1_pay1 x0 x1 y = G col et i := by
  obtain ⟨r, d, rfl⟩ : ∃ (r : Fin 6000) (d : Fin 128), y = ix2 r d := ⟨y 0, y 1, eq_ix2 y⟩
  obtain ⟨e, d', rfl⟩ : ∃ (e : Fin 600000) (d' : Fin 128), i = ix2 e d' := ⟨i 0, i 1, eq_ix2 i⟩
  obtain rfl : d' = d := Fin.ext hi1
  rw [Cert.Weighted.pay_apply]
  unfold G
  rw [h0 r e hi0, h1 r d' e hi0]

/-- What point `t` writes back is block `t` of `G` of the arrays as the launch finds them. -/
theorem flushed_eq (c : Dev nD) (t : Fin cfg1.N) :
    (dat1 V c).flushed 2 t = ((cfg1.win 2).blk t).view.read (Elt Ideal)
      (G (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S6000x1) hz, View.ld_unit_zero (S := S6000x128) hz]
  obtain ⟨e00, e01, e10, e11, e20, e21⟩ := idx_facts t
  funext j
  show k1_pay1 (iblk1 V c 0 t) (iblk1 V c 1 t) j
      = G (V c (Pipeline.arrRef spec1 0)) (V c (Pipeline.arrRef spec1 1)) (((cfg1.win 2).blk t).view.emb j)
  refine block_entry (iblk1 V c 0 t) (iblk1 V c 1 t) _ _ (t.val * 6000) ?_ ?_ j _ ?_ ?_
  · intro r e he
    show V c (Pipeline.arrRef spec1 0) (((cfg1.win 0).blk t).view.emb (ix2 r (0 : Fin 1))) = V c (Pipeline.arrRef spec1 0) (ix2 e (0 : Fin 1))
    refine congrArg _ (funext fun a => Fin.ext ?_)
    match a with
    | ⟨0, _⟩ => show win1_0.index t (0 : Fin 2) * 6000 + 1 * r.val = e.val; omega
    | ⟨1, _⟩ => show win1_0.index t (1 : Fin 2) * 1 + 1 * 0 = 0; omega
  · intro r d e he
    show V c (Pipeline.arrRef spec1 1) (((cfg1.win 1).blk t).view.emb (ix2 r d)) = V c (Pipeline.arrRef spec1 1) (ix2 e d)
    refine congrArg _ (funext fun a => Fin.ext ?_)
    match a with
    | ⟨0, _⟩ => show win1_1.index t (0 : Fin 2) * 6000 + 1 * r.val = e.val; omega
    | ⟨1, _⟩ => show win1_1.index t (1 : Fin 2) * 128 + 1 * d.val = d.val; omega
  · show win1_2.index t (0 : Fin 2) * 6000 + 1 * (j 0).val = t.val * 6000 + (j 0).val
    omega
  · show win1_2.index t (1 : Fin 2) * 128 + 1 * (j 1).val = (j 1).val
    omega

/-- An index of the output array is in point `t`'s block iff each coordinate is in the block's range on its axis. -/
theorem mem_blk (t : Fin cfg1.N) (i : S600000x128.Idx) :
    i ∈ ((cfg1.win 2).blk t).view.set ↔ ∀ a : Fin 2, win1_2.index t a * S6000x128.size a ≤ (i a).val ∧ (i a).val < win1_2.index t a * S6000x128.size a + S6000x128.size a := by
  show i ∈ ((View.whole main_v41).slice (win1_2.rect t)).set ↔ _
  rw [View.set_slice_whole, Rect.mem_set_unit]
  exact Iff.rfl

/-- The output array after the launch: the blocks of the 100 points tile it (row `e` is in block `e / 6000`), so it holds
    `G` of the input arrays as the launch finds them. -/
theorem final (c : Dev nD) : (dat1 V c).arrAt 2 cfg1.N
    = G (V c (Pipeline.arrRef spec1 0)) (V c (Pipeline.arrRef spec1 1)) :=
  (dat1 V c).arrAt_eq_of_cover 2 _ (fun t _ => flushed_eq V c t) fun i => by
    have hi0 : (i 0).val < 600000 := (i 0).isLt
    have hi1 : (i 1).val < 128 := (i 1).isLt
    have hN : cfg1.N = 100 := N_1
    have hq : (i 0).val / 6000 < cfg1.N := by rw [hN]; omega
    obtain ⟨-, -, -, -, eo0, eo1⟩ := idx_facts ⟨(i 0).val / 6000, hq⟩
    refine ⟨⟨(i 0).val / 6000, hq⟩, flush1_2 _, ?_⟩
    rw [mem_blk]
    intro a
    match a with
    | ⟨0, _⟩ =>
      show win1_2.index ⟨(i 0).val / 6000, hq⟩ (0 : Fin 2) * 6000 ≤ (i 0).val ∧ (i 0).val < win1_2.index ⟨(i 0).val / 6000, hq⟩ (0 : Fin 2) * 6000 + 6000
      rw [eo0]; show (i 0).val / 6000 * 6000 ≤ (i 0).val ∧ (i 0).val < (i 0).val / 6000 * 6000 + 6000; omega
    | ⟨1, _⟩ =>
      show win1_2.index ⟨(i 0).val / 6000, hq⟩ (1 : Fin 2) * 128 ≤ (i 1).val ∧ (i 1).val < win1_2.index ⟨(i 0).val / 6000, hq⟩ (1 : Fin 2) * 128 + 128
      rw [eo1]; omega

end Cert.KernelIdeal.Region1

end
-- ==== Proof.LibPlainDot.lean ====
/-
  The plain product of an m×k by a k×n matrix, read at an index as a sum over the contracted coordinate, for ANY record
  with the plain dimension numbers (contract axis 1 of the left with axis 0 of the right, no batch axis) — both the host's
  `dot_general` and the matrix unit's product into a zero accumulator. At the ideal values.
-/
import Idealize.ShloMosaic.Lib.ValueIdx
import Idealize.ShloMosaic.PureOps.Ideal.Laws

namespace Cert.LibPlainDot

open Idealize.ShloMosaic Idealize.ShloMosaic.ValueIdx

variable {m k n : ℕ} {φ₁ φ₂ : FTy}

/-- The left operand's index at output (a, b) and contraction coordinate c is (a, c); the right operand's is (c, b). -/
theorem idx_apply (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The host's product at (a, b) is the sum over c of A[a,c] · B[c,b]. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

/-- The matrix unit's product into the zero accumulator at (a, b) is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

end Cert.LibPlainDot
-- ==== Proof.Final.lean ====
/-
  The layer's last stage, read on both sides as one expression: with y(n, j) = Σ_d (x[n,d] + agg[n,d]) · W[j,d],
    out[n, j] = if y ≥ 0 then y else 0.2 · y.
  The kernel transposes W and multiplies each block of 2000 rows on the matrix unit into a zero accumulator; the reference
  transposes W and takes one whole [100000, 128] × [128, 128] product; both then compare with zero and select.
-/
import proofs.«178650_j67259187855785_1_alg».proof.Proof.Gen.KernelIdeal.Skeleton
import proofs.«178650_j67259187855785_1_alg».proof.Proof.Stages
import proofs.«178650_j67259187855785_1_alg».proof.Proof.LibPlainDot
import Idealize.ShloMosaic.Lib.ValueIdx
import Idealize.ShloMosaic.Lib.ValueLayout
import Idealize.ShloMosaic.Lib.Pipeline.Value

noncomputable section

namespace Cert.Final

open Idealize.ShloMosaic Idealize.ShloMosaic.ValueIdx

/-- `if y ≥ 0 then y else 0.2 · y` on one extended real (0 and 0.2 the two float constants' values). -/
def leakyS (y : EReal) : EReal :=
  Scalar.select (FloatOps.cmpf (F := Ideal) (φ := .f32) .oge y (Ideal.ofBits .f32 0x00000000#32)) y
    (Ideal.ofBits .f32 0x3E4CCCCD#32 * y)

/-- Entry (r, j) of the result from row `r` of an [n, 128] pair and the weight. -/
def rowOut {n : ℕ} (x ag : (⟨2, ![n, 128]⟩ : Shape).Idx → EReal) (w : (⟨2, ![128, 128]⟩ : Shape).Idx → EReal) (r : Fin n) (j : Fin 128) : EReal :=
  leakyS (∑ d : Fin 128, (x (ix2 r d) + ag (ix2 r d)) * w (ix2 j d))

open Cert.KernelIdeal Cert.KernelIdeal.Gen in
/-- The kernel's stored block at (r, j). -/
theorem pay_apply (v0 v1 : Vec Ideal S2000x128 .f32) (v4 : Vec Ideal S128x128 .f32) (r : Fin 2000) (j : Fin 128) :
    k2_pay1 v0 v1 v4 (ix2 r j) = rowOut v0 v1 v4 r j := by
  unfold k2_pay1
  try dsimp only
  have hM : ∀ (a0 a1 : FVec Ideal S2000x128 .f32) (a4 : FVec Ideal S128x128 .f32),
      matmul (F := Ideal) dot_S2000x128_S128x128_S2000x128_1_0_0_1_n_n none (addf a0 (shapeCast S2000x128 a1 shapeCasts_S2000x128_S2000x128))
        (transpose S128x128 [1, 0] a4 transposes_S128x128_p1_0_S128x128) (constant (F := Ideal) S2000x128 .f32 0x00000000#32) (ix2 r j)
      = ∑ d : Fin 128, (a0 (ix2 r d) + a1 (ix2 r d)) * a4 (ix2 j d) := by
    intro a0 a1 a4
    refine (Cert.LibPlainDot.matmul_zero_apply _ none _ _ r j).trans ?_
    refine Finset.sum_congr rfl fun d _ => ?_
    refine congrArg₂ (· * ·) ?_ ?_
    · exact (addf_apply _ _ _).trans (congrArg (a0 (ix2 r d) + ·) (congrFun (shapeCast_self a1 _) _))
    · exact transpose_ix2_apply a4 _ d j
  unfold rowOut
  exact Eq.trans rfl (congrArg leakyS (hM v0 v1 v4))

/-- The reference's last stage at (n, j). -/
theorem stage_apply (x ag : FVec Ideal Cert.ReferenceIdeal.S100000x128 .f32) (w : FVec Ideal Cert.ReferenceIdeal.S128x128 .f32)
    (n : Fin 100000) (j : Fin 128) : Cert.Stage.final (F := Ideal) x ag w (ix2 n j) = rowOut x ag w n j := by
  unfold Cert.Stage.final Cert.Stage.leaky
  have hM : Host.dotGeneral (F := Ideal) Cert.ReferenceIdeal.dot_S100000x128_S128x128_S100000x128_1_0_0_1_n_n none (addf x ag)
      (transpose Cert.ReferenceIdeal.S128x128 [1, 0] w Cert.ReferenceIdeal.Facts₀.transposes_S128x128_S128x128_1_0) (ix2 n j)
      = ∑ d : Fin 128, (x (ix2 n d) + ag (ix2 n d)) * w (ix2 j d) := by
    refine (Cert.LibPlainDot.dotGeneral_apply _ none _ _ n j).trans ?_
    refine Finset.sum_congr rfl fun d _ => ?_
    refine congrArg₂ (· * ·) ?_ ?_
    · exact addf_apply _ _ _
    · exact transpose_ix2_apply w _ d j
  unfold rowOut
  exact Eq.trans rfl (congrArg leakyS hM)

end Cert.Final

end
-- ==== Proof.Region2.lean ====
/-
  The third launch (the layer's last stage): the [100000, 128] output array after the launch holds, at (n, j),
  leaky (Σ_d (x[n,d] + agg[n,d]) · W[j,d]) of its inputs x, agg ([100000, 128]) and W ([128, 128]).

  The grid has 50 points; point `t` loads rows 2000·t … 2000·t + 1999 of x and agg and the whole of W, and writes back the
  same rows of the output, so the blocks tile the output.
-/
import proofs.«178650_j67259187855785_1_alg».proof.Proof.Gen.KernelIdeal.Frame
import proofs.«178650_j67259187855785_1_alg».proof.Proof.Final
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the three input arrays. -/
def G (x ag : S100000x128.Idx → EReal) (w : S128x128.Idx → EReal) : S100000x128.Idx → EReal :=
  fun i => Cert.Final.rowOut (n := 100000) x ag w (i 0) (i 1)

/-- The row windows' block at point `t` is block row `t`, block column 0; the weight's is the whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A block's entry from rows of whole arrays: if the loaded row blocks are rows `o + r` of `x` and `ag` and the loaded
    weight is `w`, the stored entry (y 0, y 1) is `G` at array index (o + y 0, y 1). -/
theorem block_entry (v0 v1 : Vec Ideal S2000x128 .f32) (v4 : Vec Ideal S128x128 .f32)
    (x ag : S100000x128.Idx → EReal) (w : S128x128.Idx → EReal) (o : ℕ)
    (h0 : ∀ (r : Fin 2000) (d : Fin 128) (n : Fin 100000), n.val = o + r.val → v0 (ix2 r d) = x (ix2 n d))
    (h1 : ∀ (r : Fin 2000) (d : Fin 128) (n : Fin 100000), n.val = o + r.val → v1 (ix2 r d) = ag (ix2 n d))
    (h2 : ∀ (j d : Fin 128), v4 (ix2 j d) = w (ix2 j d))
    (y : S2000x128.Idx) (i : S100000x128.Idx) (hi0 : (i 0).val = o + (y 0).val) (hi1 : (i 1).val = (y 1).val) :
    k2_pay1 v0 v1 v4 y = G x ag w i := by
  obtain ⟨r, j, rfl⟩ : ∃ (r : Fin 2000) (j : Fin 128), y = ix2 r j := ⟨y 0, y 1, eq_ix2 y⟩
  obtain ⟨n, j', rfl⟩ : ∃ (n : Fin 100000) (j' : Fin 128), i = ix2 n j' := ⟨i 0, i 1, eq_ix2 i⟩
  obtain rfl : j' = j := Fin.ext hi1
  rw [Cert.Final.pay_apply]
  unfold G Cert.Final.rowOut
  refine congrArg Cert.Final.leakyS (Finset.sum_congr rfl fun d _ => ?_)
  rw [h0 r d n hi0, h1 r d n hi0, h2 j' d]

/-- What point `t` writes back is block `t` of `G` of the arrays as the launch finds them. -/
theorem flushed_eq (c : Dev nD) (t : Fin cfg2.N) :
    (dat2 V c).flushed 3 t = ((cfg2.win 3).blk t).view.read (Elt Ideal)
      (G (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz]
  obtain ⟨e00, e01, e10, e11, e20, e21, e30, e31⟩ := idx_facts t
  funext j
  show k2_pay1 (iblk2 V c 0 t) (iblk2 V c 1 t) (iblk2 V c 2 t) j
      = G (V c (Pipeline.arrRef spec2 0)) (V c (Pipeline.arrRef spec2 1)) (V c (Pipeline.arrRef spec2 2)) (((cfg2.win 3).blk t).view.emb j)
  refine block_entry (iblk2 V c 0 t) (iblk2 V c 1 t) (iblk2 V c 2 t) _ _ _ (t.val * 2000) ?_ ?_ ?_ j _ ?_ ?_
  · intro r d n he
    show V c (Pipeline.arrRef spec2 0) (((cfg2.win 0).blk t).view.emb (ix2 r d)) = V c (Pipeline.arrRef spec2 0) (ix2 n d)
    refine congrArg _ (funext fun a => Fin.ext ?_)
    match a with
    | ⟨0, _⟩ => show win2_0.index t (0 : Fin 2) * 2000 + 1 * r.val = n.val; omega
    | ⟨1, _⟩ => show win2_0.index t (1 : Fin 2) * 128 + 1 * d.val = d.val; omega
  · intro r d n he
    show V c (Pipeline.arrRef spec2 1) (((cfg2.win 1).blk t).view.emb (ix2 r d)) = V c (Pipeline.arrRef spec2 1) (ix2 n d)
    refine congrArg _ (funext fun a => Fin.ext ?_)
    match a with
    | ⟨0, _⟩ => show win2_1.index t (0 : Fin 2) * 2000 + 1 * r.val = n.val; omega
    | ⟨1, _⟩ => show win2_1.index t (1 : Fin 2) * 128 + 1 * d.val = d.val; omega
  · intro q d
    show V c (Pipeline.arrRef spec2 2) (((cfg2.win 2).blk t).view.emb (ix2 q d)) = V c (Pipeline.arrRef spec2 2) (ix2 q d)
    refine congrArg _ (funext fun a => Fin.ext ?_)
    match a with
    | ⟨0, _⟩ => show win2_2.index t (0 : Fin 2) * 128 + 1 * q.val = q.val; omega
    | ⟨1, _⟩ => show win2_2.index t (1 : Fin 2) * 128 + 1 * d.val = d.val; omega
  · show win2_3.index t (0 : Fin 2) * 2000 + 1 * (j 0).val = t.val * 2000 + (j 0).val
    omega
  · show win2_3.index t (1 : Fin 2) * 128 + 1 * (j 1).val = (j 1).val
    omega

/-- An index of the output array is in point `t`'s block iff each coordinate is in the block's range on its axis. -/
theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v45).slice (win2_3.rect t)).set ↔ _
  rw [View.set_slice_whole, Rect.mem_set_unit]
  exact Iff.rfl

/-- The output array after the launch: the blocks of the 50 points tile it (row `n` is in block `n / 2000`), so it holds
    `G` of the input arrays as the launch finds them. -/
theorem final (c : Dev nD) : (dat2 V c).arrAt 3 cfg2.N
    = G (V c (Pipeline.arrRef spec2 0)) (V c (Pipeline.arrRef spec2 1)) (V c (Pipeline.arrRef spec2 2)) :=
  (dat2 V c).arrAt_eq_of_cover 3 _ (fun t _ => flushed_eq V c t) fun i => by
    have hi0 : (i 0).val < 100000 := (i 0).isLt
    have hi1 : (i 1).val < 128 := (i 1).isLt
    have hN : cfg2.N = 50 := N_2
    have hq : (i 0).val / 2000 < cfg2.N := by rw [hN]; omega
    obtain ⟨-, -, -, -, -, -, eo0, eo1⟩ := idx_facts ⟨(i 0).val / 2000, hq⟩
    refine ⟨⟨(i 0).val / 2000, hq⟩, flush2_3 _, ?_⟩
    rw [mem_blk]
    intro a
    match a with
    | ⟨0, _⟩ =>
      show win2_3.index ⟨(i 0).val / 2000, hq⟩ (0 : Fin 2) * 2000 ≤ (i 0).val ∧ (i 0).val < win2_3.index ⟨(i 0).val / 2000, hq⟩ (0 : Fin 2) * 2000 + 2000
      rw [eo0]; show (i 0).val / 2000 * 2000 ≤ (i 0).val ∧ (i 0).val < (i 0).val / 2000 * 2000 + 2000; omega
    | ⟨1, _⟩ =>
      show win2_3.index ⟨(i 0).val / 2000, hq⟩ (1 : Fin 2) * 128 ≤ (i 1).val ∧ (i 1).val < win2_3.index ⟨(i 0).val / 2000, hq⟩ (1 : Fin 2) * 128 + 128
      rw [eo1]; omega

end Cert.KernelIdeal.Region2

end
-- ==== Proof.Bridge.lean ====
/-
  The three launches' outputs are the reference's stages.

  Each launch's output array, as a function of its input arrays (the closed forms of the three launch modules), equals the
  reference's stage function of the same arrays: the score column recast as a vector is the reference's score; the
  product with the weight column (a recast vector of weights) is the reference's weighted message; the last launch's output
  is the reference's last stage. Index by index both sides are the same expression.
-/
import proofs.«178650_j67259187855785_1_alg».proof.Proof.Region0
import proofs.«178650_j67259187855785_1_alg».proof.Proof.Region1
import proofs.«178650_j67259187855785_1_alg».proof.Proof.Region2

noncomputable section

namespace Cert.Bridge

open Idealize.ShloMosaic Idealize.ShloMosaic.ValueIdx

/-- An `[a, 1]` column recast as an `[a]` vector reads, at `i`, the column's entry of row `i`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The score column recast as a vector is the reference's score. -/
theorem score_eq (eh et er : FVec Ideal Cert.KernelIdeal.S600000x128 .f32)
    (h : Cert.KernelIdeal.S600000x1.ShapeCasts Cert.KernelIdeal.S600000) :
    shapeCast Cert.KernelIdeal.S600000 (Cert.KernelIdeal.Region0.G eh et er) h = Cert.Stage.score (F := Ideal) eh et er := by
  funext i
  obtain ⟨e, rfl⟩ : ∃ e : Fin 600000, i = ix1 e := ⟨i 0, eq_ix1 i⟩
  rw [Cert.Score.stage_apply]
  exact shapeCast_a1_a_apply _ h e

/-- The product with a recast vector of weights is the reference's weighted message. -/
theorem weighted_eq (a : FVec Ideal Cert.KernelIdeal.S600000 .f32) (et : FVec Ideal Cert.KernelIdeal.S600000x128 .f32)
    (h : Cert.KernelIdeal.S600000.ShapeCasts Cert.KernelIdeal.S600000x1) :
    Cert.KernelIdeal.Region1.G (shapeCast Cert.KernelIdeal.S600000x1 a h) et = Cert.Stage.weighted (F := Ideal) a et := by
  funext i
  obtain ⟨e, d, rfl⟩ : ∃ (e : Fin 600000) (d : Fin 128), i = ix2 e d := ⟨i 0, i 1, eq_ix2 i⟩
  rw [Cert.Weighted.stage_apply]
  exact congrArg (· * et (ix2 e d)) (Cert.LibKeepdims.shapeCast_a_a1_apply a h e (0 : Fin 1))

/-- The last launch's output is the reference's last stage. -/
theorem final_eq (x ag : FVec Ideal Cert.KernelIdeal.S100000x128 .f32) (w : FVec Ideal Cert.KernelIdeal.S128x128 .f32) :
    Cert.KernelIdeal.Region2.G x ag w = Cert.Stage.final (F := Ideal) x ag w := by
  funext i
  obtain ⟨n, j, rfl⟩ : ∃ (n : Fin 100000) (j : Fin 128), i = ix2 n j := ⟨i 0, i 1, eq_ix2 i⟩
  rw [Cert.Final.stage_apply]
  rfl

end Cert.Bridge

end
-- ==== Proof.KValue.lean ====
/-
  The kernel program's result as a function of its arguments.

  Walking the boundaries between the program's six segments from the launch memory: the three gathers give the head,
  tail and relation rows; the first launch leaves the scores as a column; the host turns them into attention weights,
  again a column; the second launch leaves the weighted messages; the host sums them into their heads' rows; the third
  launch leaves the result. Each launch's output is the closed form of its module, each host stretch the composition
  of its operations, and by the three bridge equations every stage is the reference's stage function of the same arrays:
  the result buffer ends at the reference's function of the six arguments.
-/
import proofs.«178650_j67259187855785_1_alg».proof.Proof.Gen.KernelIdeal.Frame
import proofs.«178650_j67259187855785_1_alg».proof.Proof.KFolds
import proofs.«178650_j67259187855785_1_alg».proof.Proof.Bridge

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## At the first launch's entry -/

theorem w1_v6 : W1 m ρ c (main_v6 : DevRef τ sig) = (Cert.Stage.entRows (F := Ideal) (m ((c : Thread nD τ).loc main_arg0)) (m ((c : Thread nD τ).loc main_arg3))) := KFolds.ops0_v6 (W0 m ρ c)
theorem w1_v13 : W1 m ρ c (main_v13 : DevRef τ sig) = (Cert.Stage.entRows (F := Ideal) (m ((c : Thread nD τ).loc main_arg0)) (m ((c : Thread nD τ).loc main_arg5))) := KFolds.ops0_v13 (W0 m ρ c)
theorem w1_v20 : W1 m ρ c (main_v20 : DevRef τ sig) = (Cert.Stage.relRows (F := Ideal) (m ((c : Thread nD τ).loc main_arg1)) (m ((c : Thread nD τ).loc main_arg4))) := KFolds.ops0_v20 (W0 m ρ c)
theorem w1_arg0 : W1 m ρ c (main_arg0 : DevRef τ sig) = (m ((c : Thread nD τ).loc main_arg0)) := KFolds.ops0_arg0 (W0 m ρ c)
theorem w1_arg2 : W1 m ρ c (main_arg2 : DevRef τ sig) = (m ((c : Thread nD τ).loc main_arg2)) := KFolds.ops0_arg2 (W0 m ρ c)
theorem w1_arg3 : W1 m ρ c (main_arg3 : DevRef τ sig) = (m ((c : Thread nD τ).loc main_arg3)) := KFolds.ops0_arg3 (W0 m ρ c)

/-! ## At the first launch's exit: the scores, as a column -/

theorem w2_v21 : W2 m ρ c (main_v21 : DevRef τ sig) = Region0.G (Cert.Stage.entRows (F := Ideal) (m ((c : Thread nD τ).loc main_arg0)) (m ((c : Thread nD τ).loc main_arg3))) (Cert.Stage.entRows (F := Ideal) (m ((c : Thread nD τ).loc main_arg0)) (m ((c : Thread nD τ).loc main_arg5))) (Cert.Stage.relRows (F := Ideal) (m ((c : Thread nD τ).loc main_arg1)) (m ((c : Thread nD τ).loc main_arg4))) := by
  refine (W2_arr m ρ c 3).trans ((Region0.final (V1 m ρ) c).trans ?_)
  rw [show V1 m ρ c (Pipeline.arrRef spec0 0) = _ from w1_v6 m ρ c, show V1 m ρ c (Pipeline.arrRef spec0 1) = _ from w1_v13 m ρ c,
    show V1 m ρ c (Pipeline.arrRef spec0 2) = _ from w1_v20 m ρ c]

theorem w2_v13 : W2 m ρ c (main_v13 : DevRef τ sig) = (Cert.Stage.entRows (F := Ideal) (m ((c : Thread nD τ).loc main_arg0)) (m ((c : Thread nD τ).loc main_arg5))) :=
  (W2_arr m ρ c 1).trans (((dat0 (V1 m ρ) c).arrAt_in 1 rfl _).trans ((A_eq0 (V1 m ρ) c 1).trans (w1_v13 m ρ c)))
theorem w2_arg0 : W2 m ρ c (main_arg0 : DevRef τ sig) = (m ((c : Thread nD τ).loc main_arg0)) :=
  (W2_of_ne m ρ c main_arg0 (by decide)).trans (w1_arg0 m ρ c)
theorem w2_arg2 : W2 m ρ c (main_arg2 : DevRef τ sig) = (m ((c : Thread nD τ).loc main_arg2)) :=
  (W2_of_ne m ρ c main_arg2 (by decide)).trans (w1_arg2 m ρ c)
theorem w2_arg3 : W2 m ρ c (main_arg3 : DevRef τ sig) = (m ((c : Thread nD τ).loc main_arg3)) :=
  (W2_of_ne m ρ c main_arg3 (by decide)).trans (w1_arg3 m ρ c)

/-! ## At the second launch's entry: the attention weights, as a column -/

theorem w3_v40 : W3 m ρ c (main_v40 : DevRef τ sig) = shapeCast S600000x1 (Cert.Stage.attn (F := Ideal) (Cert.Stage.score (F := Ideal) (Cert.Stage.entRows (F := Ideal) (m ((c : Thread nD τ).loc main_arg0)) (m ((c : Thread nD τ).loc main_arg3))) (Cert.Stage.entRows (F := Ideal) (m ((c : Thread nD τ).loc main_arg0)) (m ((c : Thread nD τ).loc main_arg5))) (Cert.Stage.relRows (F := Ideal) (m ((c : Thread nD τ).loc main_arg1)) (m ((c : Thread nD τ).loc main_arg4)))) (m ((c : Thread nD τ).loc main_arg3))) shapeCasts_S600000_S600000x1 := by
  refine (KFolds.ops1_v40 (W2 m ρ c)).trans ?_
  rw [w2_v21 m ρ c, w2_arg3 m ρ c, Cert.Bridge.score_eq]
theorem w3_v13 : W3 m ρ c (main_v13 : DevRef τ sig) = (Cert.Stage.entRows (F := Ideal) (m ((c : Thread nD τ).loc main_arg0)) (m ((c : Thread nD τ).loc main_arg5))) := (KFolds.ops1_v13 (W2 m ρ c)).trans (w2_v13 m ρ c)
theorem w3_arg0 : W3 m ρ c (main_arg0 : DevRef τ sig) = (m ((c : Thread nD τ).loc main_arg0)) := (KFolds.ops1_arg0 (W2 m ρ c)).trans (w2_arg0 m ρ c)
theorem w3_arg2 : W3 m ρ c (main_arg2 : DevRef τ sig) = (m ((c : Thread nD τ).loc main_arg2)) := (KFolds.ops1_arg2 (W2 m ρ c)).trans (w2_arg2 m ρ c)
theorem w3_arg3 : W3 m ρ c (main_arg3 : DevRef τ sig) = (m ((c : Thread nD τ).loc main_arg3)) := (KFolds.ops1_arg3 (W2 m ρ c)).trans (w2_arg3 m ρ c)

/-! ## At the second launch's exit: the weighted messages -/

theorem w4_v41 : W4 m ρ c (main_v41 : DevRef τ sig) = (Cert.Stage.weighted (F := Ideal) (Cert.Stage.attn (F := Ideal) (Cert.Stage.score (F := Ideal) (Cert.Stage.entRows (F := Ideal) (m ((c : Thread nD τ).loc main_arg0)) (m ((c : Thread nD τ).loc main_arg3))) (Cert.Stage.entRows (F := Ideal) (m ((c : Thread nD τ).loc main_arg0)) (m ((c : Thread nD τ).loc main_arg5))) (Cert.Stage.relRows (F := Ideal) (m ((c : Thread nD τ).loc main_arg1)) (m ((c : Thread nD τ).loc main_arg4)))) (m ((c : Thread nD τ).loc main_arg3))) (Cert.Stage.entRows (F := Ideal) (m ((c : Thread nD τ).loc main_arg0)) (m ((c : Thread nD τ).loc main_arg5)))) := by
  refine (W4_arr m ρ c 2).trans ((Region1.final (V3 m ρ) c).trans ?_)
  rw [show V3 m ρ c (Pipeline.arrRef spec1 0) = _ from w3_v40 m ρ c, show V3 m ρ c (Pipeline.arrRef spec1 1) = _ from w3_v13 m ρ c,
    Cert.Bridge.weighted_eq]
theorem w4_arg0 : W4 m ρ c (main_arg0 : DevRef τ sig) = (m ((c : Thread nD τ).loc main_arg0)) :=
  (W4_of_ne m ρ c main_arg0 (by decide)).trans (w3_arg0 m ρ c)
theorem w4_arg2 : W4 m ρ c (main_arg2 : DevRef τ sig) = (m ((c : Thread nD τ).loc main_arg2)) :=
  (W4_of_ne m ρ c main_arg2 (by decide)).trans (w3_arg2 m ρ c)
theorem w4_arg3 : W4 m ρ c (main_arg3 : DevRef τ sig) = (m ((c : Thread nD τ).loc main_arg3)) :=
  (W4_of_ne m ρ c main_arg3 (by decide)).trans (w3_arg3 m ρ c)

/-! ## At the third launch's entry: the messages summed into their heads' rows -/

theorem w5_v44 : W5 m ρ c (main_v44 : DevRef τ sig) = (Cert.Stage.agg (F := Ideal) (Cert.Stage.weighted (F := Ideal) (Cert.Stage.attn (F := Ideal) (Cert.Stage.score (F := Ideal) (Cert.Stage.entRows (F := Ideal) (m ((c : Thread nD τ).loc main_arg0)) (m ((c : Thread nD τ).loc main_arg3))) (Cert.Stage.entRows (F := Ideal) (m ((c : Thread nD τ).loc main_arg0)) (m ((c : Thread nD τ).loc main_arg5))) (Cert.Stage.relRows (F := Ideal) (m ((c : Thread nD τ).loc main_arg1)) (m ((c : Thread nD τ).loc main_arg4)))) (m ((c : Thread nD τ).loc main_arg3))) (Cert.Stage.entRows (F := Ideal) (m ((c : Thread nD τ).loc main_arg0)) (m ((c : Thread nD τ).loc main_arg5)))) (m ((c : Thread nD τ).loc main_arg3))) := by
  refine (KFolds.ops2_v44 (W4 m ρ c)).trans ?_
  rw [w4_v41 m ρ c, w4_arg3 m ρ c]
theorem w5_arg0 : W5 m ρ c (main_arg0 : DevRef τ sig) = (m ((c : Thread nD τ).loc main_arg0)) := (KFolds.ops2_arg0 (W4 m ρ c)).trans (w4_arg0 m ρ c)
theorem w5_arg2 : W5 m ρ c (main_arg2 : DevRef τ sig) = (m ((c : Thread nD τ).loc main_arg2)) := (KFolds.ops2_arg2 (W4 m ρ c)).trans (w4_arg2 m ρ c)

/-! ## At the third launch's exit: the result -/

/-- The result buffer at the last boundary is the reference's function of the six arguments. -/
theorem result : W6 m ρ c (main_v45 : DevRef τ sig)
    = Cert.Stage.refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((Region2.final (V5 m ρ) c).trans ?_)
  rw [show V5 m ρ c (Pipeline.arrRef spec2 0) = _ from w5_arg0 m ρ c, show V5 m ρ c (Pipeline.arrRef spec2 1) = _ from w5_v44 m ρ c,
    show V5 m ρ c (Pipeline.arrRef spec2 2) = _ from w5_arg2 m ρ c, Cert.Bridge.final_eq]
  rfl

end Cert.KernelIdeal.KValue

end
-- ==== Proof.RefRun.lean ====
/-
  The reference program's run, read back as one function of its six arguments.

  The reference's @main is a straight line of host operations: sixty-five of its own, then the call of the
  leaky rectifier, whose body is six operations and one call of the three-way selection (one operation). Written
  as ONE list of seventy-two operations — the callee's operations at the call site, over the buffers of that
  call —, the program is the sequence of that list (`main_eq`), so every weakly fair execution terminates with
  each buffer at the list's fold over the launch contents (`StableHlo.run_seq`). Reading the fold at the result
  buffer gives the composition of the stage functions of Stages.lean, `Cert.Stage.refOut`, at the arguments'
  launch contents (`out_eq`); reading it at an argument gives the argument back (`argK_eq`): no operation
  writes an argument.
-/
import proofs.«178650_j67259187855785_1_alg».proof.Proof.Stages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- @main's operations, in order: its own sixty-five, then the leaky rectifier's six over the buffers of its call
    (the zero and its spread, the comparison `y ≥ 0`, the slope converted to its own type and spread, the product
    `slope · y`) and the selection's one, which writes the result. -/
abbrev ops : List (HloOp τ sig (Elt F)) :=
  [ nullary main_c (constantI S_ 32 0#32),
    unary main_c main_v0 (broadcastInDim S600000 ![] bcast_S_S600000 : (⟨S_, .i32⟩ : BufTy).Contents (Elt F) → (⟨S600000, .i32⟩ : BufTy).Contents (Elt F)),
    binary main_arg3 main_v0 main_v1 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v2 (broadcastInDim S600000 ![] bcast_S_S600000 : (⟨S_, .i32⟩ : BufTy).Contents (Elt F) → (⟨S600000, .i32⟩ : BufTy).Contents (Elt F)),
    binary main_arg3 main_v2 main_v3 (addi : (⟨S600000, .i32⟩ : BufTy).Contents (Elt F) → (⟨S600000, .i32⟩ : BufTy).Contents (Elt F) → (⟨S600000, .i32⟩ : BufTy).Contents (Elt F)),
    ternary main_v1 main_v3 main_arg3 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v4 main_v5 (broadcastInDim S600000x1 ![0] bcast_S600000_S600000x1_0 : (⟨S600000, .i32⟩ : BufTy).Contents (Elt F) → (⟨S600000x1, .i32⟩ : BufTy).Contents (Elt F)),
    binary main_arg0 main_v5 main_v6 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v7 (broadcastInDim S600000 ![] bcast_S_S600000 : (⟨S_, .i32⟩ : BufTy).Contents (Elt F) → (⟨S600000, .i32⟩ : BufTy).Contents (Elt F)),
    binary main_arg5 main_v7 main_v8 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v9 (broadcastInDim S600000 ![] bcast_S_S600000 : (⟨S_, .i32⟩ : BufTy).Contents (Elt F) → (⟨S600000, .i32⟩ : BufTy).Contents (Elt F)),
    binary main_arg5 main_v9 main_v10 (addi : (⟨S600000, .i32⟩ : BufTy).Contents (Elt F) → (⟨S600000, .i32⟩ : BufTy).Contents (Elt F) → (⟨S600000, .i32⟩ : BufTy).Contents (Elt F)),
    ternary main_v8 main_v10 main_arg5 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v11 main_v12 (broadcastInDim S600000x1 ![0] bcast_S600000_S600000x1_0 : (⟨S600000, .i32⟩ : BufTy).Contents (Elt F) → (⟨S600000x1, .i32⟩ : BufTy).Contents (Elt F)),
    binary main_arg0 main_v12 main_v13 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_3 (constantI S_ 32 0#32),
    unary main_c_3 main_v14 (broadcastInDim S600000 ![] bcast_S_S600000 : (⟨S_, .i32⟩ : BufTy).Contents (Elt F) → (⟨S600000, .i32⟩ : BufTy).Contents (Elt F)),
    binary main_arg4 main_v14 main_v15 (cmpi .slt : (⟨S600000, .i32⟩ : BufTy).Contents (Elt F) → (⟨S600000, .i32⟩ : BufTy).Contents (Elt F) → (⟨S600000, .i1⟩ : BufTy).Contents (Elt F)),
    nullary main_c_4 (constantI S_ 32 64#32),
    unary main_c_4 main_v16 (broadcastInDim S600000 ![] bcast_S_S600000 : (⟨S_, .i32⟩ : BufTy).Contents (Elt F) → (⟨S600000, .i32⟩ : BufTy).Contents (Elt F)),
    binary main_arg4 main_v16 main_v17 (addi : (⟨S600000, .i32⟩ : BufTy).Contents (Elt F) → (⟨S600000, .i32⟩ : BufTy).Contents (Elt F) → (⟨S600000, .i32⟩ : BufTy).Contents (Elt F)),
    ternary main_v15 main_v17 main_arg4 main_v18 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v18 main_v19 (broadcastInDim S600000x1 ![0] bcast_S600000_S600000x1_0 : (⟨S600000, .i32⟩ : BufTy).Contents (Elt F) → (⟨S600000x1, .i32⟩ : BufTy).Contents (Elt F)),
    binary main_arg1 main_v19 main_v20 ((fun x i => Host.gather gather_S64x128_S600000x1_S600000x128_1_0_n_n_0_1_1128 x i) : (⟨S64x128, .f32⟩ : BufTy).Contents (Elt F) → (⟨S600000x1, .i32⟩ : BufTy).Contents (Elt F) → (⟨S600000x128, .f32⟩ : BufTy).Contents (Elt F)),
    binary main_v6 main_v20 main_v21 (addf : (⟨S600000x128, .f32⟩ : BufTy).Contents (Elt F) → (⟨S600000x128, .f32⟩ : BufTy).Contents (Elt F) → (⟨S600000x128, .f32⟩ : BufTy).Contents (Elt F)),
    unary main_v21 main_v22 (Host.tanh : (⟨S600000x128, .f32⟩ : BufTy).Contents (Elt F) → (⟨S600000x128, .f32⟩ : BufTy).Contents (Elt F)),
    binary main_v13 main_v22 main_v23 (mulf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    binary main_v23 main_cst main_v24 ((fun x v => Host.reduceAdd x v reducesTo_S600000x128_S600000_d1 h_S_) : (⟨S600000x128, .f32⟩ : BufTy).Contents (Elt F) → (⟨S_, .f32⟩ : BufTy).Contents (Elt F) → (⟨S600000, .f32⟩ : BufTy).Contents (Elt F)),
    nullary main_cst_5 (constant S_ .f32 0xFF800000#32),
    binary main_v24 main_cst_5 main_v25 ((fun x v => Host.reduce FloatOps.maximumf x v reducesTo_S600000_S_d0 h_S_) : (⟨S600000, .f32⟩ : BufTy).Contents (Elt F) → (⟨S_, .f32⟩ : BufTy).Contents (Elt F) → (⟨S_, .f32⟩ : BufTy).Contents (Elt F)),
    unary main_v25 main_v26 (broadcastInDim S600000 ![] bcast_S_S600000 : (⟨S_, .f32⟩ : BufTy).Contents (Elt F) → (⟨S600000, .f32⟩ : BufTy).Contents (Elt F)),
    binary main_v24 main_v26 main_v27 (subf : (⟨S600000, .f32⟩ : BufTy).Contents (Elt F) → (⟨S600000, .f32⟩ : BufTy).Contents (Elt F) → (⟨S600000, .f32⟩ : BufTy).Contents (Elt F)),
    unary main_v27 main_v28 (Host.exp : (⟨S600000, .f32⟩ : BufTy).Contents (Elt F) → (⟨S600000, .f32⟩ : BufTy).Contents (Elt F)),
    nullary main_cst_6 (constant S_ .f32 0x00000000#32),
    unary main_cst_6 main_v29 (broadcastInDim S100000 ![] bcast_S_S100000 : (⟨S_, .f32⟩ : BufTy).Contents (Elt F) → (⟨S100000, .f32⟩ : BufTy).Contents (Elt F)),
    unary main_arg3 main_v30 (broadcastInDim S600000x1 ![0] bcast_S600000_S600000x1_0 : (⟨S600000, .i32⟩ : BufTy).Contents (Elt F) → (⟨S600000x1, .i32⟩ : BufTy).Contents (Elt F)),
    ternary main_v29 main_v30 main_v28 main_v31 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_c_7 (constantI S_ 32 0#32),
    unary main_c_7 main_v32 (broadcastInDim S600000 ![] bcast_S_S600000 : (⟨S_, .i32⟩ : BufTy).Contents (Elt F) → (⟨S600000, .i32⟩ : BufTy).Contents (Elt F)),
    binary main_arg3 main_v32 main_v33 (cmpi .slt : (⟨S600000, .i32⟩ : BufTy).Contents (Elt F) → (⟨S600000, .i32⟩ : BufTy).Contents (Elt F) → (⟨S600000, .i1⟩ : BufTy).Contents (Elt F)),
    nullary main_c_8 (constantI S_ 32 100000#32),
    unary main_c_8 main_v34 (broadcastInDim S600000 ![] bcast_S_S600000 : (⟨S_, .i32⟩ : BufTy).Contents (Elt F) → (⟨S600000, .i32⟩ : BufTy).Contents (Elt F)),
    binary main_arg3 main_v34 main_v35 (addi : (⟨S600000, .i32⟩ : BufTy).Contents (Elt F) → (⟨S600000, .i32⟩ : BufTy).Contents (Elt F) → (⟨S600000, .i32⟩ : BufTy).Contents (Elt F)),
    ternary main_v33 main_v35 main_arg3 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v36 main_v37 (broadcastInDim S600000x1 ![0] bcast_S600000_S600000x1_0 : (⟨S600000, .i32⟩ : BufTy).Contents (Elt F) → (⟨S600000x1, .i32⟩ : BufTy).Contents (Elt F)),
    binary main_v31 main_v37 main_v38 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_cst_9 (constant S_ .f32 0x2EDBE6FF#32),
    unary main_cst_9 main_v39 (broadcastInDim S600000 ![] bcast_S_S600000 : (⟨S_, .f32⟩ : BufTy).Contents (Elt F) → (⟨S600000, .f32⟩ : BufTy).Contents (Elt F)),
    binary main_v38 main_v39 main_v40 (addf : (⟨S600000, .f32⟩ : BufTy).Contents (Elt F) → (⟨S600000, .f32⟩ : BufTy).Contents (Elt F) → (⟨S600000, .f32⟩ : BufTy).Contents (Elt F)),
    binary main_v28 main_v40 main_v41 (Host.divf : (⟨S600000, .f32⟩ : BufTy).Contents (Elt F) → (⟨S600000, .f32⟩ : BufTy).Contents (Elt F) → (⟨S600000, .f32⟩ : BufTy).Contents (Elt F)),
    unary main_v41 main_v42 (broadcastInDim S600000x1 ![0] bcast_S600000_S600000x1_0 : (⟨S600000, .f32⟩ : BufTy).Contents (Elt F) → (⟨S600000x1, .f32⟩ : BufTy).Contents (Elt F)),
    unary main_v42 main_v43 (broadcastInDim S600000x128 ![0, 1] bcast_S600000x1_S600000x128_0_1 : (⟨S600000x1, .f32⟩ : BufTy).Contents (Elt F) → (⟨S600000x128, .f32⟩ : BufTy).Contents (Elt F)),
    binary main_v43 main_v13 main_v44 (mulf : (⟨S600000x128, .f32⟩ : BufTy).Contents (Elt F) → (⟨S600000x128, .f32⟩ : BufTy).Contents (Elt F) → (⟨S600000x128, .f32⟩ : BufTy).Contents (Elt F)),
    nullary main_cst_10 (constant S_ .f32 0x00000000#32),
    unary main_cst_10 main_v45 (broadcastInDim S100000x128 ![] bcast_S_S100000x128 : (⟨S_, .f32⟩ : BufTy).Contents (Elt F) → (⟨S100000x128, .f32⟩ : BufTy).Contents (Elt F)),
    unary main_arg3 main_v46 (broadcastInDim S600000x1 ![0] bcast_S600000_S600000x1_0 : (⟨S600000, .i32⟩ : BufTy).Contents (Elt F) → (⟨S600000x1, .i32⟩ : BufTy).Contents (Elt F)),
    ternary main_v45 main_v46 main_v44 main_v47 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_arg0 main_v47 main_v48 (addf : (⟨S100000x128, .f32⟩ : BufTy).Contents (Elt F) → (⟨S100000x128, .f32⟩ : BufTy).Contents (Elt F) → (⟨S100000x128, .f32⟩ : BufTy).Contents (Elt F)),
    unary main_arg2 main_v49 ((transpose S128x128 [1, 0] · transposes_S128x128_S128x128_1_0) : (⟨S128x128, .f32⟩ : BufTy).Contents (Elt F) → (⟨S128x128, .f32⟩ : BufTy).Contents (Elt F)),
    binary main_v48 main_v49 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_11 (constant S_ .f32 0x3E4CCCCD#32),
    TRef.nullary main_call0.cst (constant S_ .f32 0x00000000#32),
    TRef.unary main_call0.cst main_call0.v0 (broadcastInDim S100000x128 ![] bcast_S_S100000x128),
    TRef.binary (.of main_v50) main_call0.v0 main_call0.v1 (cmpf .oge),
    TRef.unary (.of main_cst_11) main_call0.v2 id,
    TRef.unary main_call0.v2 main_call0.v3 (broadcastInDim S100000x128 ![] bcast_S_S100000x128),
    TRef.binary main_call0.v3 (.of main_v50) main_call0.v4 mulf,
    TRef.ternary main_call0.v1 (.of main_v50) main_call0.v4 main_call0.call0.v0 select ]

/-- @main is that straight line: its two windows run in order, the rectifier's body and the selection's body
    unfolded at their calls; sequencing computes, so both sides are the same chain of operation steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., binary_bufs_sub ..,
    nullary_bufs_sub .., binary_bufs_sub .., nullary_bufs_sub .., binary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., unary_bufs_sub ..,
    ternary_bufs_sub .., binary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

attribute [local irreducible] Host.gather Host.scatterAdd Host.reduce Host.reduceAdd in
set_option maxRecDepth 16384 in
set_option maxHeartbeats 2000000 in
/-- The fold at the result buffer is the composition of the stages. Each operation's result at its own buffer is its
    function of the contents of the buffers it reads, and at any other buffer what was there; rewriting so from the
    last operation back leaves one term over the six arguments' contents, every intermediate value in the place of
    each of its uses. That term and `Cert.Stage.refOut` are the same composition, operation for operation — the
    stage functions unfolded, and the typed references' transports the identity at these literal references —, so
    the equation holds by computation. The gathers, the scatter-additions and the two reductions are kept folded
    meanwhile: the equation never looks inside them, and their bodies are folds and searches over whole arrays. -/
theorem out_eq (V : Valuation τ sig (Elt F)) :
    after ops V (main_v51 : DevRef τ sig)
      = Cert.Stage.refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-! No operation writes an argument: the fold leaves each where it was. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-- On every device, for any float values, from any memory with zero counters: every weakly fair execution of
    @main terminates with the result buffer at `Cert.Stage.refOut` of the arguments' launch contents and the six
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = Cert.Stage.refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v51).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.RefRun

end
-- ==== Proof.lean ====
/-
  The certificate of a graph attention layer's kernel against its reference, over the extended reals.

  Both programs compute, for 600000 edges (head h, relation r, tail t) over 100000 entity rows x of width 128, relation rows ρ
  and a 128 × 128 weight W:
    score(e) = Σ_d x[t(e),d] · tanh (x[h(e),d] + ρ[r(e),d]),      p(e) = exp (score(e) − max score),
    attn(e)  = p(e) / (Σ_{e' : h(e') = h(e)} p(e') + 1e-10),       agg[n,d] = Σ_{e : h(e) = n} attn(e) · x[t(e),d],
    out[n,j] = leaky (Σ_d (x[n,d] + agg[n,d]) · W[j,d]),           leaky y = if y ≥ 0 then y else 0.2 · y.
  The kernel's program runs the score, the product attn(e) · x[t(e),d] and the last stage as three launches tiled over the
  edge or entity axis, with the gathers, the maximum, the exponentials, the two sums by head and the division between them as
  host operations; the reference runs every stage as host operations on whole arrays. The host operations the two share are
  the same operations in the same order, so they are carried as the same functions; each launch's output array is, index by
  index, the reference's stage of the same input arrays: a lane sum against a host sum started from zero, a column spread
  along the row against a vector spread twice, a block product on the matrix unit into a zero accumulator against one whole
  product. No law used needs the inputs finite: sums are only regrouped by tiles, never distributed over.

  The frames of the two kernel programs are the generated ones; the reference's frame is its run with the result dropped; the
  idealization rewrote nothing, so `preserves` is trivial.
-/
import proofs.«178650_j67259187855785_1_alg».proof.Defs
import proofs.«178650_j67259187855785_1_alg».proof.Proof.Gen.Kernel
import proofs.«178650_j67259187855785_1_alg».proof.Proof.Gen.Kernel.Frame
import proofs.«178650_j67259187855785_1_alg».proof.Proof.Gen.KernelIdeal
import proofs.«178650_j67259187855785_1_alg».proof.Proof.Gen.KernelIdeal.Frame
import proofs.«178650_j67259187855785_1_alg».proof.Proof.Gen.ReferenceIdeal
import proofs.«178650_j67259187855785_1_alg».proof.Proof.Gen.Pre_finite_inputs
import proofs.«178650_j67259187855785_1_alg».proof.Proof.KRun
import proofs.«178650_j67259187855785_1_alg».proof.Proof.KValue
import proofs.«178650_j67259187855785_1_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the six arguments both programs end with the result at the reference's function of the
    arguments: the kernel's by its run and the walk through its segments, the reference's by its run. -/
theorem algebraic : Cert.algebraic_KernelIdeal_ReferenceIdeal := by
  intro m ρ m' ρ' _ hagree
  refine ⟨fun c => Cert.Stage.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result m ρ c), (h c).2⟩) (Cert.KernelIdeal.KRun.run m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
